-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S2x800000 : Shape := ⟨2, ![2, 800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x512 .f32) (main_arg1 : FVec F S512x256 .f32) (main_arg2 : FVec F S256 .f32) (main_arg3 : FVec F S256x2 .f32) (main_arg4 : FVec F S2 .f32) (main_arg5 : IVec S2x800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x2 .f32 := Host.absf main_arg3
  let main_cst_4 : FVec F S_ .f32 := constant S_ .f32 0x7F800000#32
  let main_v15 : FVec F S256x2 .f32 := broadcastInDim S256x2 ![] bcast_S_S256x2 main_cst_4
  let main_v16 : IVec S256x2 1 := cmpf .olt main_v14 main_v15
  fn_part1 (F := F) main_arg4 main_v13 main_v16
-- ==== Kernel.lean ====
abbrev S50000x512 : Shape := ⟨2, ![50000, 512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S256x128 : Shape := ⟨2, ![256, 128]⟩
abbrev S50000x128 : Shape := ⟨2, ![50000, 128]⟩
abbrev S2000x128 : Shape := ⟨2, ![2000, 128]⟩
abbrev S50000x2 : Shape := ⟨2, ![50000, 2]⟩
abbrev S850000x2 : Shape := ⟨2, ![850000, 2]⟩
abbrev S1x2 : Shape := ⟨2, ![1, 2]⟩

abbrev nBuf : Space → Nat
  | .hbm => 93
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x2, .f32⟩
  | .hbm, ⟨4, _⟩ => ⟨S2, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S_, .i32⟩
  | .hbm, ⟨70, _⟩ => ⟨S_, .f32⟩
  | .hbm, ⟨71, _⟩ => ⟨S256x128, .f32⟩
  | .hbm, ⟨72, _⟩ => ⟨S50000x128, .f32⟩
  | .hbm, ⟨73, _⟩ => ⟨S50000x2, .f32⟩
  | .hbm, ⟨74, _⟩ => ⟨S850000x1, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x2, .f32⟩
  | .hbm, ⟨84, _⟩ => ⟨S850000x2, .f32⟩
  | .hbm, ⟨85, _⟩ => ⟨S850000x2, .f32⟩
  | .hbm, ⟨86, _⟩ => ⟨S_, .f32⟩
  | .hbm, ⟨87, _⟩ => ⟨S50000x2, .f32⟩
  | .hbm, ⟨88, _⟩ => ⟨S850000x1, .i32⟩
  | .hbm, ⟨89, _⟩ => ⟨S50000x2, .f32⟩
  | .hbm, ⟨90, _⟩ => ⟨S1x2, .f32⟩
  | .hbm, ⟨91, _⟩ => ⟨S50000x2, .f32⟩
  | .hbm, ⟨92, _⟩ => ⟨S50000x2, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_c_9 : Ref sig .tc := ⟨.hbm, 69, rfl⟩
abbrev main_call2_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  pads_S256x2_S256x128_000_01260 : S256x2.Pads (![0, 0] : Fin 2 → Nat) ![0, 126] ![0, 0] S256x128
  h_S_ : 0 < S_.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  slices_S50000x128_S50000x2_0_0 : S50000x128.Slices ![0, 0] S50000x2
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x2 : Shape := ⟨2, ![50000, 2]⟩
abbrev S850000x2 : Shape := ⟨2, ![850000, 2]⟩
abbrev S1x2 : Shape := ⟨2, ![1, 2]⟩

abbrev nBuf : Space → Nat
  | .hbm => 108
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x2, .f32⟩
  | .hbm, ⟨4, _⟩ => ⟨S2, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x256, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x2, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S850000x1, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x2, .f32⟩
  | .hbm, ⟨99, _⟩ => ⟨S850000x2, .f32⟩
  | .hbm, ⟨100, _⟩ => ⟨S850000x2, .f32⟩
  | .hbm, ⟨101, _⟩ => ⟨S_, .f32⟩
  | .hbm, ⟨102, _⟩ => ⟨S50000x2, .f32⟩
  | .hbm, ⟨103, _⟩ => ⟨S850000x1, .i32⟩
  | .hbm, ⟨104, _⟩ => ⟨S50000x2, .f32⟩
  | .hbm, ⟨105, _⟩ => ⟨S1x2, .f32⟩
  | .hbm, ⟨106, _⟩ => ⟨S50000x2, .f32⟩
  | .hbm, ⟨107, _⟩ => ⟨S50000x2, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  dot_S50000x512_S512x256_S50000x256_1_0_0_1_n_n_wf : DotDims.WF S50000x512 S512x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x2_S50000x2_1_0_0_1_n_n_wf : DotDims.WF S50000x256 S256x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

class Facts : Prop extends Facts₀ where

variable [Facts]
-- ==== Proof.KernelRun.lean ====
/-
  The kernel program's run with every buffer named.

  The program is ten segments: host operations, the first dense product as a pipelined region, host operations, the
  second dense product as a pipelined region, host operations. Folding the segments over the launch memory gives the
  contents of every buffer at the end (`Gen.W10`): a host stretch contributes its operations' values, a region leaves
  its output array at what its write-backs add up to and every other buffer as it found it. The run below states that
  every weakly fair execution terminates with EVERY unscoped buffer at that fold — the result buffer included, which
  is what the value proof reads — where the frame claim only keeps the argument arrays.
-/
import proofs.«151963_j17892833755183_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core at
    the fold of the ten segments over the launch memory. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W10 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c b hb => h c _ (mem_uc b hb))

end Cert.KernelIdeal.RunValue

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Payload.lean ====
/-
  What one grid point of each dense product computes, entry by entry.

  The body of either kernel loads a block of rows of the left operand and the whole right operand, narrows both to
  bf16 (the identity on the extended reals), and multiplies them on the matrix unit into a zero accumulator. At entry
  (p, q) of the block that is the inner product of row p of the left block with column q of the right operand.
-/
import proofs.«151963_j17892833755183_1_alg».proof.Proof.Gen.KernelIdeal.Skeleton
import proofs.«151963_j17892833755183_1_alg».proof.Proof.LibMatmulNN
import Idealize.ShloMosaic.Lib.Pipeline.Value

noncomputable section

namespace Cert.KernelIdeal.Dense

open Idealize.ShloMosaic Idealize.ShloMosaic.ValueIdx Cert.KernelIdeal Cert.KernelIdeal.Gen

/-- The first product's block at (p, q): row p of the 2000-row block against column q of the weights. -/
theorem pay0_apply (x0 : Vec Ideal S2000x512 .f32) (x1 : Vec Ideal S512x256 .f32) (p : Fin 2000) (q : Fin 256) :
    k0_pay1 (F := Ideal) x0 x1 (ix2 p q) = ∑ k : Fin 512, x0 (ix2 p k) * x1 (ix2 k q) := by
  unfold k0_pay1
  exact Cert.MatmulNN.matmul_zero_apply (φ₁ := .bf16) (φ₂ := .bf16) dot_S2000x512_S512x256_S2000x256_1_0_0_1_n_n rfl none
    (truncf .bf16 x0 bitsLt_bf16_f32) (truncf .bf16 x1 bitsLt_bf16_f32) p q

/-- The second product's block at (p, q): row p of the 2000-row block against column q of the padded weights. -/
theorem pay1_apply (x0 : Vec Ideal S2000x256 .f32) (x1 : Vec Ideal S256x128 .f32) (p : Fin 2000) (q : Fin 128) :
    k1_pay1 (F := Ideal) x0 x1 (ix2 p q) = ∑ k : Fin 256, x0 (ix2 p k) * x1 (ix2 k q) := by
  unfold k1_pay1
  simp only [shapeCast_self]
  exact Cert.MatmulNN.matmul_zero_apply (φ₁ := .bf16) (φ₂ := .bf16) dot_S2000x256_S256x128_S2000x128_1_0_0_1_n_n rfl none
    (truncf .bf16 x0 bitsLt_bf16_f32) (truncf .bf16 x1 bitsLt_bf16_f32) p q

end Cert.KernelIdeal.Dense

end
-- ==== Proof.LibDenseProduct.lean ====
/-
  A reusable definition: the dense product of an [M, K] array by a [K, N] array over the extended reals, as one
  function of the whole arrays,

      (x · w)[i, j] = Σ_{k < K} x[i, k] · w[k, j],

  generic in the extents. It is what a row-blocked matrix-unit kernel leaves in its output array and what the host's
  dot_general computes.
-/
import Idealize.ShloMosaic.PureOps.Ideal
import Idealize.ShloMosaic.Lib.ValueIdx

noncomputable section

namespace Cert.Dense

open Idealize.ShloMosaic Idealize.ShloMosaic.ValueIdx

/-- The product of an [M, K] array by a [K, N] array, entry by entry. -/
def mm {M K N : Nat} (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

/-- The product at explicit coordinates. -/
theorem mm_apply {M K N : Nat} (x : FVec Ideal ⟨2, ![M, K]⟩ .f32) (w : FVec Ideal ⟨2, ![K, N]⟩ .f32) (p : Fin M) (q : Fin N) :
    mm x w (ix2 p q) = ∑ k : Fin K, x (ix2 p k) * w (ix2 k q) := rfl

end Cert.Dense

end
-- ==== Proof.Region0.lean ====
/-
  The first dense product as a pipelined region: what its output array holds when the region ends.

  The grid has 25 points. Point t stages rows 2000·t … 2000·t + 1999 of the left operand and the whole right operand,
  multiplies them, and writes the [2000, 256] block back to rows 2000·t … 2000·t + 1999 of the output. Entry (p, q) of that
  block is the inner product of row 2000·t + p of the left operand with column q of the right one, which is entry
  (2000·t + p, q) of the whole product; the 25 blocks tile the output, so the array ends at the whole product of the
  two operand arrays as the region found them.
-/
import proofs.«151963_j17892833755183_1_alg».proof.Proof.Gen.KernelIdeal.Frame
import proofs.«151963_j17892833755183_1_alg».proof.Proof.Payload
import proofs.«151963_j17892833755183_1_alg».proof.Proof.LibDenseProduct
import Idealize.ShloMosaic.Lib.Pipeline.Value

set_option maxRecDepth 16384

noncomputable section

namespace Cert.KernelIdeal.Dense.Region0

open Idealize.ShloMosaic Idealize.ShloMosaic.TcCoe Idealize.ShloMosaic.ValueIdx Idealize.SL.Sem
open Cert.KernelIdeal Cert.KernelIdeal.Gen Cert.Dense

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's and the output's blocks are block row t, the right
    operand's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left block at point t is row 2000·t + p of the left operand. -/
theorem left_block (c : Dev nD) (t : Fin cfg0.N) (p : Fin 2000) (k : Fin 512) (r : Fin 50000)
    (hr : r.val = t.val * 2000 + p.val) :
    (iblk0 V c 0 t : Vec Ideal S2000x512 .f32) (ix2 p k) = (V c main_arg0 : S50000x512.Idx → EReal) (ix2 r k) := by
  unfold iblk0
  rw [View.read_apply]
  show V c main_arg0 _ = V c main_arg0 _
  refine congrArg _ ?_
  funext a
  apply Fin.ext
  match a with
  | ⟨0, _⟩ => show win0_0.index t (0 : Fin 2) * 2000 + 1 * p.val = r.val; rw [(idx_facts t).1, hr]; omega
  | ⟨1, _⟩ => show win0_0.index t (1 : Fin 2) * 512 + 1 * k.val = k.val; rw [(idx_facts t).2.1]; omega

/-- The right block at every point is the whole right operand. -/
theorem right_block (c : Dev nD) (t : Fin cfg0.N) (k : Fin 512) (q : Fin 256) :
    (iblk0 V c 1 t : Vec Ideal S512x256 .f32) (ix2 k q) = (V c main_arg1 : S512x256.Idx → EReal) (ix2 k q) := by
  unfold iblk0
  rw [View.read_apply]
  show V c main_arg1 _ = V c main_arg1 _
  refine congrArg _ ?_
  funext a
  apply Fin.ext
  match a with
  | ⟨0, _⟩ => show win0_1.index t (0 : Fin 2) * 512 + 1 * k.val = k.val; rw [(idx_facts t).2.2.1]; omega
  | ⟨1, _⟩ => show win0_1.index t (1 : Fin 2) * 256 + 1 * q.val = q.val; rw [(idx_facts t).2.2.2.1]; omega

/-- What point t writes back is block t of the whole product. -/
theorem flushed_eq (c : Dev nD) (t : Fin cfg0.N) :
    (dat0 V c).flushed 2 t = ((cfg0.win 2).blk t).view.read (Elt Ideal) (mm (V c main_arg0) (V c main_arg1)) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x256) origin]
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (ix2 p q)
    = mm (V c main_arg0) (V c main_arg1) (((cfg0.win 2).blk t).view.emb (ix2 p q))
  refine (pay0_apply (iblk0 V c 0 t) (iblk0 V c 1 t) p q).trans ?_
  refine Finset.sum_congr rfl fun k _ => ?_
  refine congrArg₂ (· * ·) (left_block V c t p k _ ?_) ((right_block V c t k q).trans (congrArg _ ?_))
  · show win0_2.index t (0 : Fin 2) * 2000 + 1 * p.val = t.val * 2000 + p.val
    rw [(idx_facts t).2.2.2.2.1]; omega
  · funext a
    apply Fin.ext
    match a with
    | ⟨0, _⟩ => rfl
    | ⟨1, _⟩ => show q.val = win0_2.index t (1 : Fin 2) * 256 + 1 * q.val; rw [(idx_facts t).2.2.2.2.2]; omega

/-- An index of the output array is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v30).slice (win0_2.rect t)).set ↔ _
  rw [View.set_slice_whole, Rect.mem_set_unit]
  exact Iff.rfl

/-- The output array when the region ends: the whole product of the two operand arrays as the region found them. -/
theorem final (c : Dev nD) : (dat0 V c).arrAt 2 cfg0.N = mm (V c main_arg0) (V c main_arg1) :=
  (dat0 V c).arrAt_eq_of_cover 2 (mm (V c main_arg0) (V c main_arg1)) (fun t _ => flushed_eq V c t) fun i => by
    have hN : cfg0.N = 25 := N_0
    have h0 : (i 0).val < 50000 := (i 0).isLt
    have h1 : (i 1).val < 256 := (i 1).isLt
    refine ⟨⟨(i 0).val / 2000, by rw [hN]; omega⟩, flush0_2 _, ?_⟩
    rw [mem_blk]
    intro a
    obtain ⟨-, -, -, -, e0, e1⟩ := idx_facts ⟨(i 0).val / 2000, by rw [hN]; omega⟩
    match a with
    | ⟨0, _⟩ =>
      show win0_2.index _ (0 : Fin 2) * 2000 ≤ (i 0).val ∧ (i 0).val < win0_2.index _ (0 : Fin 2) * 2000 + 2000
      rw [e0]; show (i 0).val / 2000 * 2000 ≤ (i 0).val ∧ (i 0).val < (i 0).val / 2000 * 2000 + 2000; omega
    | ⟨1, _⟩ =>
      show win0_2.index _ (1 : Fin 2) * 256 ≤ (i 1).val ∧ (i 1).val < win0_2.index _ (1 : Fin 2) * 256 + 256
      rw [e1]; omega

end Cert.KernelIdeal.Dense.Region0

end
-- ==== Proof.Region1.lean ====
/-
  The second dense product as a pipelined region: what its output array holds when the region ends.

  The grid has 25 points. Point t stages rows 2000·t … 2000·t + 1999 of the left operand and the whole right operand,
  multiplies them, and writes the [2000, 128] block back to rows 2000·t … 2000·t + 1999 of the output. Entry (p, q) of that
  block is the inner product of row 2000·t + p of the left operand with column q of the right one, which is entry
  (2000·t + p, q) of the whole product; the 25 blocks tile the output, so the array ends at the whole product of the
  two operand arrays as the region found them.
-/
import proofs.«151963_j17892833755183_1_alg».proof.Proof.Gen.KernelIdeal.Frame
import proofs.«151963_j17892833755183_1_alg».proof.Proof.Payload
import proofs.«151963_j17892833755183_1_alg».proof.Proof.LibDenseProduct
import Idealize.ShloMosaic.Lib.Pipeline.Value

set_option maxRecDepth 16384

noncomputable section

namespace Cert.KernelIdeal.Dense.Region1

open Idealize.ShloMosaic Idealize.ShloMosaic.TcCoe Idealize.ShloMosaic.ValueIdx Idealize.SL.Sem
open Cert.KernelIdeal Cert.KernelIdeal.Gen Cert.Dense

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left operand's and the output's blocks are block row t, the right
    operand's block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the left block at point t is row 2000·t + p of the left operand. -/
theorem left_block (c : Dev nD) (t : Fin cfg1.N) (p : Fin 2000) (k : Fin 256) (r : Fin 50000)
    (hr : r.val = t.val * 2000 + p.val) :
    (iblk1 V c 0 t : Vec Ideal S2000x256 .f32) (ix2 p k) = (V c main_v47 : S50000x256.Idx → EReal) (ix2 r k) := by
  unfold iblk1
  rw [View.read_apply]
  show V c main_v47 _ = V c main_v47 _
  refine congrArg _ ?_
  funext a
  apply Fin.ext
  match a with
  | ⟨0, _⟩ => show win1_0.index t (0 : Fin 2) * 2000 + 1 * p.val = r.val; rw [(idx_facts t).1, hr]; omega
  | ⟨1, _⟩ => show win1_0.index t (1 : Fin 2) * 256 + 1 * k.val = k.val; rw [(idx_facts t).2.1]; omega

/-- The right block at every point is the whole right operand. -/
theorem right_block (c : Dev nD) (t : Fin cfg1.N) (k : Fin 256) (q : Fin 128) :
    (iblk1 V c 1 t : Vec Ideal S256x128 .f32) (ix2 k q) = (V c main_v48 : S256x128.Idx → EReal) (ix2 k q) := by
  unfold iblk1
  rw [View.read_apply]
  show V c main_v48 _ = V c main_v48 _
  refine congrArg _ ?_
  funext a
  apply Fin.ext
  match a with
  | ⟨0, _⟩ => show win1_1.index t (0 : Fin 2) * 256 + 1 * k.val = k.val; rw [(idx_facts t).2.2.1]; omega
  | ⟨1, _⟩ => show win1_1.index t (1 : Fin 2) * 128 + 1 * q.val = q.val; rw [(idx_facts t).2.2.2.1]; omega

/-- What point t writes back is block t of the whole product. -/
theorem flushed_eq (c : Dev nD) (t : Fin cfg1.N) :
    (dat1 V c).flushed 2 t = ((cfg1.win 2).blk t).view.read (Elt Ideal) (mm (V c main_v47) (V c main_v48)) := by
  show (cfg1.win 2).cut (grid1.coords t) ((dat1 V c).after 2 t) = _
  rw [after1_2]
  unfold out1_2
  rw [View.canon_unit_zero origin]
  simp only [View.ld_unit_zero (S := S2000x256) origin, View.ld_unit_zero (S := S256x128) origin]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q)
    = mm (V c main_v47) (V c main_v48) (((cfg1.win 2).blk t).view.emb (ix2 p q))
  refine (pay1_apply (iblk1 V c 0 t) (iblk1 V c 1 t) p q).trans ?_
  refine Finset.sum_congr rfl fun k _ => ?_
  refine congrArg₂ (· * ·) (left_block V c t p k _ ?_) ((right_block V c t k q).trans (congrArg _ ?_))
  · show win1_2.index t (0 : Fin 2) * 2000 + 1 * p.val = t.val * 2000 + p.val
    rw [(idx_facts t).2.2.2.2.1]; omega
  · funext a
    apply Fin.ext
    match a with
    | ⟨0, _⟩ => rfl
    | ⟨1, _⟩ => show q.val = win1_2.index t (1 : Fin 2) * 128 + 1 * q.val; rw [(idx_facts t).2.2.2.2.2]; omega

/-- An index of the output array is in point t's block iff each coordinate is in the block's range on its axis. -/
theorem mem_blk (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v49).slice (win1_2.rect t)).set ↔ _
  rw [View.set_slice_whole, Rect.mem_set_unit]
  exact Iff.rfl

/-- The output array when the region ends: the whole product of the two operand arrays as the region found them. -/
theorem final (c : Dev nD) : (dat1 V c).arrAt 2 cfg1.N = mm (V c main_v47) (V c main_v48) :=
  (dat1 V c).arrAt_eq_of_cover 2 (mm (V c main_v47) (V c main_v48)) (fun t _ => flushed_eq V c t) fun i => by
    have hN : cfg1.N = 25 := N_1
    have h0 : (i 0).val < 50000 := (i 0).isLt
    have h1 : (i 1).val < 128 := (i 1).isLt
    refine ⟨⟨(i 0).val / 2000, by rw [hN]; omega⟩, flush1_2 _, ?_⟩
    rw [mem_blk]
    intro a
    obtain ⟨-, -, -, -, e0, e1⟩ := idx_facts ⟨(i 0).val / 2000, by rw [hN]; omega⟩
    match a with
    | ⟨0, _⟩ =>
      show win1_2.index _ (0 : Fin 2) * 2000 ≤ (i 0).val ∧ (i 0).val < win1_2.index _ (0 : Fin 2) * 2000 + 2000
      rw [e0]; show (i 0).val / 2000 * 2000 ≤ (i 0).val ∧ (i 0).val < (i 0).val / 2000 * 2000 + 2000; omega
    | ⟨1, _⟩ =>
      show win1_2.index _ (1 : Fin 2) * 128 ≤ (i 1).val ∧ (i 1).val < win1_2.index _ (1 : Fin 2) * 128 + 128
      rw [e1]; omega

end Cert.KernelIdeal.Dense.Region1

end
-- ==== Proof.Chain.lean ====
/-
  The graph-convolution layers around the two dense products, as functions of arrays.

  With self loops appended to the edge list (source row `src`, target row `dst` of length E + N), the degree of a node
  is the number of edges arriving at it, `dis` is deg^(-1/2) where the degree is positive and 0 elsewhere, and the edge
  weight is `nrm[e] = dis[src e] · dis[dst e]`. A layer takes node features `h` (already multiplied by the layer's weight
  matrix), sends `nrm[e] · h[src e]` along every edge, sums what arrives at each node, and adds the bias; the first layer
  then clamps at zero. Negative indices are wrapped by the node count before a row is fetched.

  Both programs apply exactly these operations to the result of a dense product; they differ only in how the two dense
  products are computed. Everything here is stated once, for any float instance, over the printed operations.
-/
import proofs.«151963_j17892833755183_1_alg».proof.ReferenceIdeal

noncomputable section

namespace Cert.Chain

open Idealize.ShloMosaic Cert.ReferenceIdeal Cert.ReferenceIdeal.Facts₀

variable {F : FTy → Type} [FloatOps F] [Facts₀]

/-- The source end of every edge, the self loops appended. -/
def src (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The target end of every edge, the self loops appended. -/
def dst (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- The number of edges arriving at each node. -/
def deg (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32))

/-- deg^(-1/2) where the degree is positive, zero elsewhere. -/
def dis (e : (⟨S2x800000, .i32⟩ : BufTy).Contents (Elt F)) : (⟨S50000, .f32⟩ : BufTy).Contents (Elt F) :=
  select (cmpf .ogt (deg e) (broadcastInDim S50000 ![] bcast_S_S50000 (constant S_ .f32 0x00000000#32))) (Host.rsqrt (deg e)) (broadcastInDim S50000 ![] bcast_S_S50000 (id (constant S_ .f32 0x00000000#32)))

/-- A row of node indices as a column of start indices, a negative index moved up by the node count. -/
def wrap (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- The weight of every edge: the product of `dis` at its two ends. -/
def nrm (e : (⟨S2x800000, .i32⟩ : BufTy).Contents (Elt F)) : (⟨S850000, .f32⟩ : BufTy).Contents (Elt F) :=
  mulf (Host.gather gather_S50000_S850000x1_S850000_n_0_n_n_0_1_1 (dis e) (wrap (src e))) (Host.gather gather_S50000_S850000x1_S850000_n_0_n_n_0_1_1 (dis e) (wrap (dst e)))

/-- The first layer after its dense product `h`, over given edge weights `n`, source row `s` and target row `d`: weighted
    messages summed at their targets, plus the bias, clamped at zero. -/
def layer1On (n : (⟨S850000, .f32⟩ : BufTy).Contents (Elt F)) (s d : (⟨S850000, .i32⟩ : BufTy).Contents (Elt F))
    (h : (⟨S50000x256, .f32⟩ : BufTy).Contents (Elt F)) (b : (⟨S256, .f32⟩ : BufTy).Contents (Elt F)) :
    (⟨S50000x256, .f32⟩ : BufTy).Contents (Elt F) :=
  maximumf (addf (Host.scatterAdd scatter_S50000x256_S850000x1_S850000x256_1_0_0_1 (broadcastInDim S50000x256 ![] bcast_S_S50000x256 (constant S_ .f32 0x00000000#32)) (broadcastInDim S850000x1 ![0] bcast_S850000_S850000x1_0 d) (mulf (broadcastInDim S850000x256 ![0, 1] bcast_S850000x1_S850000x256_0_1 (broadcastInDim S850000x1 ![0] bcast_S850000_S850000x1_0 n)) (Host.gather gather_S50000x256_S850000x1_S850000x256_1_0_n_n_0_1_1256 h (wrap s)))) (broadcastInDim S50000x256 ![0, 1] bcast_S1x256_S50000x256_0_1 (broadcastInDim S1x256 ![1] bcast_S256_S1x256_1 b))) (broadcastInDim S50000x256 ![] bcast_S_S50000x256 (constant S_ .f32 0x00000000#32))

/-- The second layer after its dense product `h`, over given edge weights, source row and target row: weighted messages
    summed at their targets, plus the bias. -/
def layer2On (n : (⟨S850000, .f32⟩ : BufTy).Contents (Elt F)) (s d : (⟨S850000, .i32⟩ : BufTy).Contents (Elt F))
    (h : (⟨S50000x2, .f32⟩ : BufTy).Contents (Elt F)) (b : (⟨S2, .f32⟩ : BufTy).Contents (Elt F)) :
    (⟨S50000x2, .f32⟩ : BufTy).Contents (Elt F) :=
  addf (Host.scatterAdd scatter_S50000x2_S850000x1_S850000x2_1_0_0_1 (broadcastInDim S50000x2 ![] bcast_S_S50000x2 (constant S_ .f32 0x00000000#32)) (broadcastInDim S850000x1 ![0] bcast_S850000_S850000x1_0 d) (mulf (broadcastInDim S850000x2 ![0, 1] bcast_S850000x1_S850000x2_0_1 (broadcastInDim S850000x1 ![0] bcast_S850000_S850000x1_0 n)) (Host.gather gather_S50000x2_S850000x1_S850000x2_1_0_n_n_0_1_12 h (wrap s)))) (broadcastInDim S50000x2 ![0, 1] bcast_S1x2_S50000x2_0_1 (broadcastInDim S1x2 ![1] bcast_S2_S1x2_1 b))

/-- The first layer of the network on the edge list `e`. -/
def layer1 (e : (⟨S2x800000, .i32⟩ : BufTy).Contents (Elt F)) (h : (⟨S50000x256, .f32⟩ : BufTy).Contents (Elt F))
    (b : (⟨S256, .f32⟩ : BufTy).Contents (Elt F)) : (⟨S50000x256, .f32⟩ : BufTy).Contents (Elt F) :=
  layer1On (nrm e) (src e) (dst e) h b

/-- The second layer of the network on the edge list `e`. -/
def layer2 (e : (⟨S2x800000, .i32⟩ : BufTy).Contents (Elt F)) (h : (⟨S50000x2, .f32⟩ : BufTy).Contents (Elt F))
    (b : (⟨S2, .f32⟩ : BufTy).Contents (Elt F)) : (⟨S50000x2, .f32⟩ : BufTy).Contents (Elt F) :=
  layer2On (nrm e) (src e) (dst e) h b

end Cert.Chain

end
-- ==== Proof.HostBefore.lean ====
/-
  The host operations before the first dense product, read as values.

  From the edge list they compute the two index rows (sources and targets with the self loops appended) and the edge
  weights dis[src] · dis[dst]; they write none of the argument arrays. Stated for an arbitrary starting valuation W of
  the buffers, so that each fact is a short computation over the forty operations.
-/
import proofs.«151963_j17892833755183_1_alg».proof.Proof.Gen.KernelIdeal.Launch
import proofs.«151963_j17892833755183_1_alg».proof.Proof.Chain
import proofs.«151963_j17892833755183_1_alg».proof.Proof.Gen.ReferenceIdeal
import Idealize.ShloMosaic.Lib.StableHlo.Run

set_option maxRecDepth 16384
set_option maxHeartbeats 8000000

noncomputable section

namespace Cert.KernelIdeal.HostValue

open Idealize.ShloMosaic Idealize.ShloMosaic.TcCoe Idealize.ShloMosaic.StableHlo Idealize.SL.Sem
open Cert.KernelIdeal Cert.KernelIdeal.Gen

variable {F : FTy → Type} [FloatOps F]

/-- The buffers' contents after the three stretches of host operations that precede the first region. -/
abbrev before (W : Valuation τ sig (Elt F)) : Valuation τ sig (Elt F) :=
  StableHlo.after hostOps0_2 (StableHlo.after hostOps0_1 (StableHlo.after hostOps0 W))

/-- The edge weights. -/
theorem before_weights (W : Valuation τ sig (Elt F)) :
    before W (Proc.devRef .tc main_v29) = Chain.nrm (W (Proc.devRef .tc main_arg5)) := by
  unfold before
  after_results_simp
  rfl

/-- The source row. -/
theorem before_src (W : Valuation τ sig (Elt F)) :
    before W (Proc.devRef .tc main_v3) = Chain.src (W (Proc.devRef .tc main_arg5)) := by
  unfold before
  after_results_simp
  rfl

/-- The target row. -/
theorem before_dst (W : Valuation τ sig (Elt F)) :
    before W (Proc.devRef .tc main_v6) = Chain.dst (W (Proc.devRef .tc main_arg5)) := by
  unfold before
  after_results_simp
  rfl

/-- The float arguments are not written. -/
theorem before_arg0 (W : Valuation τ sig (Elt F)) : before W (Proc.devRef .tc main_arg0) = W (Proc.devRef .tc main_arg0) := by
  unfold before; after_results_simp <;> rfl
theorem before_arg1 (W : Valuation τ sig (Elt F)) : before W (Proc.devRef .tc main_arg1) = W (Proc.devRef .tc main_arg1) := by
  unfold before; after_results_simp <;> rfl
theorem before_arg2 (W : Valuation τ sig (Elt F)) : before W (Proc.devRef .tc main_arg2) = W (Proc.devRef .tc main_arg2) := by
  unfold before; after_results_simp <;> rfl
theorem before_arg3 (W : Valuation τ sig (Elt F)) : before W (Proc.devRef .tc main_arg3) = W (Proc.devRef .tc main_arg3) := by
  unfold before; after_results_simp <;> rfl
theorem before_arg4 (W : Valuation τ sig (Elt F)) : before W (Proc.devRef .tc main_arg4) = W (Proc.devRef .tc main_arg4) := by
  unfold before; after_results_simp <;> rfl

end Cert.KernelIdeal.HostValue

end
-- ==== Proof.HostBetween.lean ====
/-
  The host operations between the two dense products, read as values.

  They scale every row fetched from the first product by its edge weight, sum the scaled rows at their targets, add the
  first bias and clamp at zero; and they widen the second weight matrix from 2 to 128 columns with zeros. They write
  none of the index rows, the edge weights or the last bias. Stated for an arbitrary starting valuation W.
-/
import proofs.«151963_j17892833755183_1_alg».proof.Proof.Gen.KernelIdeal.Launch
import proofs.«151963_j17892833755183_1_alg».proof.Proof.Chain
import proofs.«151963_j17892833755183_1_alg».proof.Proof.Gen.ReferenceIdeal
import Idealize.ShloMosaic.Lib.StableHlo.Run

set_option maxRecDepth 16384
set_option maxHeartbeats 8000000

noncomputable section

namespace Cert.KernelIdeal.HostValue

open Idealize.ShloMosaic Idealize.ShloMosaic.TcCoe Idealize.ShloMosaic.StableHlo Idealize.SL.Sem
open Cert.KernelIdeal Cert.KernelIdeal.Gen

variable {F : FTy → Type} [FloatOps F]

/-- The buffers' contents after the four stretches of host operations between the two regions. -/
abbrev between (W : Valuation τ sig (Elt F)) : Valuation τ sig (Elt F) :=
  StableHlo.after hostOps1_3 (StableHlo.after hostOps1_2 (StableHlo.after hostOps1_1 (StableHlo.after hostOps1 W)))

/-- The hidden features: the first layer applied to the first product. -/
theorem between_hidden (W : Valuation τ sig (Elt F)) :
    between W (Proc.devRef .tc main_v47)
      = Chain.layer1On (W (Proc.devRef .tc main_v29)) (W (Proc.devRef .tc main_v3)) (W (Proc.devRef .tc main_v6))
          (W (Proc.devRef .tc main_v30)) (W (Proc.devRef .tc main_arg2)) := by
  unfold between
  after_results_simp
  rfl

/-- The second weight matrix widened to 128 columns, zeros in the new ones. -/
theorem between_padded (W : Valuation τ sig (Elt F)) :
    between W (Proc.devRef .tc main_v48)
      = pad S256x128 ![0, 0] ![0, 126] ![0, 0] (W (Proc.devRef .tc main_arg3)) (sitofp .f32 (constantI S_ 32 0#32))
          pads_S256x2_S256x128_000_01260 h_S_ := by
  unfold between
  after_results_simp
  rfl

/-- What the second layer still needs is not written. -/
theorem between_weights (W : Valuation τ sig (Elt F)) : between W (Proc.devRef .tc main_v29) = W (Proc.devRef .tc main_v29) := by
  unfold between; after_results_simp <;> rfl
theorem between_src (W : Valuation τ sig (Elt F)) : between W (Proc.devRef .tc main_v3) = W (Proc.devRef .tc main_v3) := by
  unfold between; after_results_simp <;> rfl
theorem between_dst (W : Valuation τ sig (Elt F)) : between W (Proc.devRef .tc main_v6) = W (Proc.devRef .tc main_v6) := by
  unfold between; after_results_simp <;> rfl
theorem between_arg4 (W : Valuation τ sig (Elt F)) : between W (Proc.devRef .tc main_arg4) = W (Proc.devRef .tc main_arg4) := by
  unfold between; after_results_simp <;> rfl

end Cert.KernelIdeal.HostValue

end
-- ==== Proof.HostAfter.lean ====
/-
  The host operations after the second dense product, read as values.

  They keep the first two of the 128 columns of the second product, scale every fetched row by its edge weight, sum the
  scaled rows at their targets and add the last bias. Stated for an arbitrary starting valuation W.
-/
import proofs.«151963_j17892833755183_1_alg».proof.Proof.Gen.KernelIdeal.Launch
import proofs.«151963_j17892833755183_1_alg».proof.Proof.Chain
import proofs.«151963_j17892833755183_1_alg».proof.Proof.Gen.ReferenceIdeal
import Idealize.ShloMosaic.Lib.StableHlo.Run

set_option maxRecDepth 16384
set_option maxHeartbeats 8000000

noncomputable section

namespace Cert.KernelIdeal.HostValue

open Idealize.ShloMosaic Idealize.ShloMosaic.TcCoe Idealize.ShloMosaic.StableHlo Idealize.SL.Sem
open Cert.KernelIdeal Cert.KernelIdeal.Gen

variable {F : FTy → Type} [FloatOps F]

/-- The program's result: the second layer applied to the first two columns of the second product. -/
theorem after_result (W : Valuation τ sig (Elt F)) :
    StableHlo.after hostOps2 W (Proc.devRef .tc main_v66)
      = Chain.layer2On (W (Proc.devRef .tc main_v29)) (W (Proc.devRef .tc main_v3)) (W (Proc.devRef .tc main_v6))
          (extractStridedSlice S50000x2 ![0, 0] (W (Proc.devRef .tc main_v49)) slices_S50000x128_S50000x2_0_0)
          (W (Proc.devRef .tc main_arg4)) := by
  after_results_simp
  rfl

end Cert.KernelIdeal.HostValue

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«151963_j17892833755183_1_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibWidenedProduct.lean ====
/-
  Reusable lemmas: a whole-array dense product against the host's dot_general, over the extended reals, generic in the
  extents M and K.

  `mm_eq_dot`: the whole-array product Σ_k x[i,k]·w[k,j] is the host's dot_general of the same operands, entry by entry.
  `slice_mm_pad`: a [K, 2] weight matrix widened to 128 columns by a host pad (any fill value), multiplied, and columns
  0 and 1 of the result kept by a host slice, is the host's dot_general with the original weights: column j < 2 of the
  widened matrix is column j of the original one, so entry (i, j) of the kept part is Σ_k h[i,k]·w[k,j]. No property of
  the numbers is used: both sides are the same finite sum.
-/
import proofs.«151963_j17892833755183_1_alg».proof.Proof.LibDotNN
import proofs.«151963_j17892833755183_1_alg».proof.Proof.LibDenseProduct
import Idealize.ShloMosaic.Lib.KernelVsHost
import Idealize.ShloMosaic.Lib.Pipeline.Value

noncomputable section

namespace Cert.Dense

open Idealize.ShloMosaic Idealize.ShloMosaic.ValueIdx

/-- The whole-array product is the host's dot_general. -/
theorem mm_eq_dot {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) :
    mm x w = Host.dotGeneral D none x w := by
  funext i
  obtain ⟨p, q, rfl⟩ : ∃ (p : Fin M) (q : Fin N), i = ix2 p q := ⟨i 0, i 1, eq_ix2 i⟩
  rw [mm_apply, Cert.DotNN.dotGeneral_apply D hD none x w p q]

/-- Columns 0 and 1 of the product with the widened weights are the host's dot_general with the original weights. -/
theorem slice_mm_pad {M K : Nat} (D : DotDims ⟨2, ![M, K]⟩ ⟨2, ![K, 2]⟩ ⟨2, ![M, 2]⟩) (hD : D = DotDims.plain M K 2)
    (h : FVec Ideal ⟨2, ![M, K]⟩ .f32) (w : FVec Ideal ⟨2, ![K, 2]⟩ .f32) {u : Shape} (z : FVec Ideal u .f32) (hu : 0 < u.numel)
    (hp : (⟨2, ![K, 2]⟩ : Shape).Pads ![0, 0] ![0, 126] ![0, 0] ⟨2, ![K, 128]⟩)
    (hs : (⟨2, ![M, 128]⟩ : Shape).Slices ![0, 0] ⟨2, ![M, 2]⟩) :
    extractStridedSlice ⟨2, ![M, 2]⟩ ![0, 0] (mm h (pad ⟨2, ![K, 128]⟩ ![0, 0] ![0, 126] ![0, 0] w z hp hu)) hs
      = Host.dotGeneral D none h w := by
  funext i
  obtain ⟨p, q, rfl⟩ : ∃ (p : Fin M) (q : Fin 2), i = ix2 p q := ⟨i 0, i 1, eq_ix2 i⟩
  have hq : q.val < 128 := by omega
  rw [Cert.DotNN.dotGeneral_apply D hD none h w p q]
  refine (extractStridedSlice_apply _ _ hs (ix2 p q) (ix2 p (⟨q.val, hq⟩ : Fin 128)) (by
    intro a
    match a with
    | ⟨0, _⟩ => show p.val = 0 + p.val; omega
    | ⟨1, _⟩ => show q.val = 0 + q.val; omega)).trans ?_
  rw [mm_apply]
  refine Finset.sum_congr rfl fun k _ => ?_
  refine congrArg (h (ix2 p k) * ·) ?_
  exact pad_apply_of_inside _ _ _ w z hp hu _ (ix2 k q) (by
    intro a
    match a with
    | ⟨0, _⟩ => show k.val = 0 + k.val * (0 + 1); omega
    | ⟨1, _⟩ => show q.val = 0 + q.val * (0 + 1); omega)

end Cert.Dense

end
-- ==== Proof.KernelValue.lean ====
/-
  The kernel program's result buffer at the end of the run, as a function of the argument arrays.

  The run's fold (`Gen.W10`) is read segment by segment. Before the first region the host computes the index rows and
  the edge weights and writes no argument; the first region leaves x·W1 in its output array and nothing else changed;
  the host operations in between apply the first layer and widen W2; the second region leaves h·W2wide; the last host
  operations keep columns 0 and 1 and apply the second layer. Replacing the two whole-array products by the host's
  dot_general (they are the same finite sums) gives
      layer2(e, dot(layer1(e, dot(x, W1), b1), W2), b2),
  which is also how the reference's result groups.
-/
import proofs.«151963_j17892833755183_1_alg».proof.Proof.Gen.KernelIdeal.Frame
import proofs.«151963_j17892833755183_1_alg».proof.Proof.Gen.ReferenceIdeal
import proofs.«151963_j17892833755183_1_alg».proof.Proof.Region0
import proofs.«151963_j17892833755183_1_alg».proof.Proof.Region1
import proofs.«151963_j17892833755183_1_alg».proof.Proof.HostBefore
import proofs.«151963_j17892833755183_1_alg».proof.Proof.HostBetween
import proofs.«151963_j17892833755183_1_alg».proof.Proof.HostAfter
import proofs.«151963_j17892833755183_1_alg».proof.Proof.LibWidenedProduct

set_option maxRecDepth 16384

noncomputable section

namespace Cert.KernelIdeal.HostValue

open Idealize.ShloMosaic Idealize.ShloMosaic.TcCoe Idealize.ShloMosaic.StableHlo Idealize.SL.Sem
open Cert.KernelIdeal Cert.KernelIdeal.Gen Cert.Dense

variable (m : (ℓ : Loc nD τ sig) → Buf (Elt Ideal) ℓ) (ρ : Dev nD → PrngReg)

/-! ## Up to the first region's exit -/

theorem at4_weights (c : Dev nD) : W4 m ρ c (Proc.devRef .tc main_v29) = Chain.nrm (m ((c : Thread nD τ).loc main_arg5)) :=
  (W4_of_ne m ρ c main_v29 (by decide)).trans (before_weights (W0 m ρ c))
theorem at4_src (c : Dev nD) : W4 m ρ c (Proc.devRef .tc main_v3) = Chain.src (m ((c : Thread nD τ).loc main_arg5)) :=
  (W4_of_ne m ρ c main_v3 (by decide)).trans (before_src (W0 m ρ c))
theorem at4_dst (c : Dev nD) : W4 m ρ c (Proc.devRef .tc main_v6) = Chain.dst (m ((c : Thread nD τ).loc main_arg5)) :=
  (W4_of_ne m ρ c main_v6 (by decide)).trans (before_dst (W0 m ρ c))
theorem at4_arg2 (c : Dev nD) : W4 m ρ c (Proc.devRef .tc main_arg2) = m ((c : Thread nD τ).loc main_arg2) :=
  (W4_of_ne m ρ c main_arg2 (by decide)).trans (before_arg2 (W0 m ρ c))
theorem at4_arg3 (c : Dev nD) : W4 m ρ c (Proc.devRef .tc main_arg3) = m ((c : Thread nD τ).loc main_arg3) :=
  (W4_of_ne m ρ c main_arg3 (by decide)).trans (before_arg3 (W0 m ρ c))
theorem at4_arg4 (c : Dev nD) : W4 m ρ c (Proc.devRef .tc main_arg4) = m ((c : Thread nD τ).loc main_arg4) :=
  (W4_of_ne m ρ c main_arg4 (by decide)).trans (before_arg4 (W0 m ρ c))

/-- The first region leaves x · W1 in its output array. -/
theorem first_product (c : Dev nD) :
    W4 m ρ c (Proc.devRef .tc main_v30) = mm (m ((c : Thread nD τ).loc main_arg0)) (m ((c : Thread nD τ).loc main_arg1)) :=
  (W4_arr m ρ c 2).trans ((Cert.KernelIdeal.Dense.Region0.final (V3 m ρ) c).trans
    (congrArg₂ mm (before_arg0 (W0 m ρ c)) (before_arg1 (W0 m ρ c))))

/-! ## Up to the second region's exit -/

/-- The hidden features: the first layer of the network applied to x · W1. -/
theorem at8_hidden (c : Dev nD) :
    W8 m ρ c (Proc.devRef .tc main_v47)
      = Chain.layer1 (m ((c : Thread nD τ).loc main_arg5))
          (mm (m ((c : Thread nD τ).loc main_arg0)) (m ((c : Thread nD τ).loc main_arg1))) (m ((c : Thread nD τ).loc main_arg2)) :=
  (between_hidden (W4 m ρ c)).trans (by
    rw [at4_weights m ρ c, at4_src m ρ c, at4_dst m ρ c, first_product m ρ c, at4_arg2 m ρ c]
    rfl)

theorem at8_padded (c : Dev nD) :
    W8 m ρ c (Proc.devRef .tc main_v48)
      = pad S256x128 ![0, 0] ![0, 126] ![0, 0] (m ((c : Thread nD τ).loc main_arg3)) (sitofp (F := Ideal) .f32 (constantI S_ 32 0#32))
          pads_S256x2_S256x128_000_01260 h_S_ :=
  (between_padded (W4 m ρ c)).trans (by rw [at4_arg3 m ρ c])

theorem at9_weights (c : Dev nD) : W9 m ρ c (Proc.devRef .tc main_v29) = Chain.nrm (m ((c : Thread nD τ).loc main_arg5)) :=
  (W9_of_ne m ρ c main_v29 (by decide)).trans ((between_weights (W4 m ρ c)).trans (at4_weights m ρ c))
theorem at9_src (c : Dev nD) : W9 m ρ c (Proc.devRef .tc main_v3) = Chain.src (m ((c : Thread nD τ).loc main_arg5)) :=
  (W9_of_ne m ρ c main_v3 (by decide)).trans ((between_src (W4 m ρ c)).trans (at4_src m ρ c))
theorem at9_dst (c : Dev nD) : W9 m ρ c (Proc.devRef .tc main_v6) = Chain.dst (m ((c : Thread nD τ).loc main_arg5)) :=
  (W9_of_ne m ρ c main_v6 (by decide)).trans ((between_dst (W4 m ρ c)).trans (at4_dst m ρ c))
theorem at9_arg4 (c : Dev nD) : W9 m ρ c (Proc.devRef .tc main_arg4) = m ((c : Thread nD τ).loc main_arg4) :=
  (W9_of_ne m ρ c main_arg4 (by decide)).trans ((between_arg4 (W4 m ρ c)).trans (at4_arg4 m ρ c))

/-- The second region leaves h · W2wide in its output array. -/
theorem second_product (c : Dev nD) :
    W9 m ρ c (Proc.devRef .tc main_v49)
      = mm (Chain.layer1 (m ((c : Thread nD τ).loc main_arg5))
            (mm (m ((c : Thread nD τ).loc main_arg0)) (m ((c : Thread nD τ).loc main_arg1))) (m ((c : Thread nD τ).loc main_arg2)))
          (pad S256x128 ![0, 0] ![0, 126] ![0, 0] (m ((c : Thread nD τ).loc main_arg3)) (sitofp (F := Ideal) .f32 (constantI S_ 32 0#32))
            pads_S256x2_S256x128_000_01260 h_S_) :=
  (W9_arr m ρ c 2).trans ((Cert.KernelIdeal.Dense.Region1.final (V8 m ρ) c).trans (congrArg₂ mm (at8_hidden m ρ c) (at8_padded m ρ c)))

/-! ## The result -/

/-- The kernel program's result: the two layers around two host dense products. -/
theorem result_eq (c : Dev nD) :
    W10 m ρ c (Proc.devRef .tc main_v66)
      = Chain.layer2 (m ((c : Thread nD τ).loc main_arg5))
          (Host.dotGeneral (F := Ideal) (φ₁ := .f32) (φ₂ := .f32) Cert.ReferenceIdeal.dot_S50000x256_S256x2_S50000x2_1_0_0_1_n_n none
            (Chain.layer1 (m ((c : Thread nD τ).loc main_arg5))
              (Host.dotGeneral (F := Ideal) (φ₁ := .f32) (φ₂ := .f32) Cert.ReferenceIdeal.dot_S50000x512_S512x256_S50000x256_1_0_0_1_n_n none
                (m ((c : Thread nD τ).loc main_arg0)) (m ((c : Thread nD τ).loc main_arg1)))
              (m ((c : Thread nD τ).loc main_arg2)))
            (m ((c : Thread nD τ).loc main_arg3)))
          (m ((c : Thread nD τ).loc main_arg4)) :=
  (after_result (W9 m ρ c)).trans (by
    rw [at9_weights m ρ c, at9_src m ρ c, at9_dst m ρ c, second_product m ρ c, at9_arg4 m ρ c,
      mm_eq_dot Cert.ReferenceIdeal.dot_S50000x512_S512x256_S50000x256_1_0_0_1_n_n rfl
        (m ((c : Thread nD τ).loc main_arg0)) (m ((c : Thread nD τ).loc main_arg1))]
    exact congrArg (fun h2 => Chain.layer2 (m ((c : Thread nD τ).loc main_arg5)) h2 (m ((c : Thread nD τ).loc main_arg4)))
      (slice_mm_pad Cert.ReferenceIdeal.dot_S50000x256_S256x2_S50000x2_1_0_0_1_n_n rfl _ _ _ h_S_
        pads_S256x2_S256x128_000_01260 slices_S50000x128_S50000x2_0_0))

end Cert.KernelIdeal.HostValue

end
-- ==== Proof.RefValue.lean ====
/-
  The reference program's result as the two graph-convolution layers around two host dense products.

  Its run ends with the result buffer at the composed term of its 102 operations; grouped, that term is
  layer2(e, dot(layer1(e, dot(x, W1), b1), W2), b2): the second layer recomputes the edge weights from the edge list, by
  the same operations as the first.
-/
import proofs.«151963_j17892833755183_1_alg».proof.Proof.RefRun
import proofs.«151963_j17892833755183_1_alg».proof.Proof.Chain

set_option maxRecDepth 16384

noncomputable section

namespace Cert.RefValue

open Idealize.ShloMosaic Idealize.ShloMosaic.TcCoe Idealize.SL.Sem Cert.ReferenceIdeal Cert.ReferenceIdeal.Gen

variable {F : FTy → Type} [FloatOps F]

/-- The reference's result, grouped into layers. -/
theorem result_eq (m : (ℓ : Loc nD τ sig) → Buf (Elt F) ℓ) (c : Dev nD) :
    ValueP.res_main_v79 m c
      = Chain.layer2 (m ((c.tc : Thread nD τ).loc main_arg5))
          (Host.dotGeneral dot_S50000x256_S256x2_S50000x2_1_0_0_1_n_n none
            (Chain.layer1 (m ((c.tc : Thread nD τ).loc main_arg5))
              (Host.dotGeneral dot_S50000x512_S512x256_S50000x256_1_0_0_1_n_n none
                (m ((c.tc : Thread nD τ).loc main_arg0)) (m ((c.tc : Thread nD τ).loc main_arg1)))
              (m ((c.tc : Thread nD τ).loc main_arg2)))
            (m ((c.tc : Thread nD τ).loc main_arg3)))
          (m ((c.tc : Thread nD τ).loc main_arg4)) := by
  unfold ValueP.res_main_v79 Chain.layer2 Chain.layer1 Chain.layer2On Chain.layer1On Chain.nrm Chain.dis Chain.deg Chain.wrap Chain.src Chain.dst
  rfl

end Cert.RefValue

end
-- ==== Proof.lean ====
/-
  A two-layer graph convolution network on 50000 nodes and 800000 edges (self loops appended), features 512 → 256 → 2:

      out = Â · relu(Â · (x · W1) + b1) · W2 + b2,   Â = D^(-1/2) (A + I) D^(-1/2),

  the aggregation Â· written as: fetch the source row of every edge, scale it by dis[src]·dis[dst], sum at the target.

  The kernel program computes the two dense products x · W1 and h · W2 as pipelined regions on the matrix unit (25 row
  blocks of 2000 rows each, operands narrowed to bf16, f32 accumulation; W2 widened from 2 to 128 columns with zeros and
  columns 0, 1 kept afterwards) and everything else by the same host operations as the reference, which computes the two
  products by the host's dot_general.

  Over the extended reals the narrowing is the identity and a product on the matrix unit into a zero accumulator is the
  plain finite sum Σ_k a[i,k]·b[k,j]; the blocks of a region tile its output, so each region leaves the whole product
  (Region0, Region1). The widened weights contribute Σ_k h[i,k]·W2[k,j] in columns j < 2, the host product again
  (Bridge). Both programs therefore end at layer2(e, dot(layer1(e, dot(x, W1), b1), W2), b2) of their arguments
  (KernelValue, RefValue): no algebraic law and no finiteness of the inputs is needed, the two sides are the same sums
  in the same order. The idealized kernel is the kernel's own text read over the extended reals (no rewrite), so the
  preservation conjunct is trivial.
-/
import proofs.«151963_j17892833755183_1_alg».proof.Defs
import proofs.«151963_j17892833755183_1_alg».proof.Proof.Gen.Kernel
import proofs.«151963_j17892833755183_1_alg».proof.Proof.Gen.Kernel.Frame
import proofs.«151963_j17892833755183_1_alg».proof.Proof.Gen.KernelIdeal
import proofs.«151963_j17892833755183_1_alg».proof.Proof.Gen.KernelIdeal.Frame
import proofs.«151963_j17892833755183_1_alg».proof.Proof.Gen.ReferenceIdeal
import proofs.«151963_j17892833755183_1_alg».proof.Proof.Gen.Pre_finite_inputs
import proofs.«151963_j17892833755183_1_alg».proof.Proof.KernelRun
import proofs.«151963_j17892833755183_1_alg».proof.Proof.KernelValue
import proofs.«151963_j17892833755183_1_alg».proof.Proof.RefRun
import proofs.«151963_j17892833755183_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel program runs to the end and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end at layer2(e, dot(layer1(e, dot(x, W1), b1), W2), b2) of arguments that agree. -/
theorem algebraic : Cert.algebraic_KernelIdeal_ReferenceIdeal := by
  intro m ρ m' ρ' _ hagree
  refine ⟨_, (θ_run Cert.KernelIdeal.defs _ _).mono (fun r h c =>
      ⟨(h c Cert.KernelIdeal.main_v66 (by decide)).trans (Cert.KernelIdeal.HostValue.result_eq m ρ c),
       (h c Cert.KernelIdeal.main_arg0 (by decide)).trans (Cert.KernelIdeal.Gen.W10_main_arg0 m ρ c),
       (h c Cert.KernelIdeal.main_arg1 (by decide)).trans (Cert.KernelIdeal.Gen.W10_main_arg1 m ρ c),
       (h c Cert.KernelIdeal.main_arg2 (by decide)).trans (Cert.KernelIdeal.Gen.W10_main_arg2 m ρ c),
       (h c Cert.KernelIdeal.main_arg3 (by decide)).trans (Cert.KernelIdeal.Gen.W10_main_arg3 m ρ c),
       (h c Cert.KernelIdeal.main_arg4 (by decide)).trans (Cert.KernelIdeal.Gen.W10_main_arg4 m ρ c),
       (h c Cert.KernelIdeal.main_arg5 (by decide)).trans (Cert.KernelIdeal.Gen.W10_main_arg5 m ρ c)⟩)
      (Cert.KernelIdeal.RunValue.run_all m ρ), ?_⟩
  refine (θ_run Cert.ReferenceIdeal.defs _ _).mono (fun _ h c => ⟨(h c).1.trans ?_, (h c).2⟩)
    (Cert.ReferenceIdeal.ValueP.run (F := Ideal) m' ρ')
  rw [Cert.RefValue.result_eq m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
